-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x128 .f32) (main_arg3 : FVec F S128 .f32) (main_arg4 : FVec F S128x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x64 : Shape := ⟨2, ![5000, 64]⟩
abbrev S5000x128 : Shape := ⟨2, ![5000, 128]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S50000x64, .f32⟩
  | 1 => ⟨S2x800000, .i32⟩
  | 2 => ⟨S64x128, .f32⟩
  | 3 => ⟨S128, .f32⟩
  | 4 => ⟨S128x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000, .i32⟩
  | 11 => ⟨S850000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x128, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S_, .f32⟩
  | 68 => ⟨S50000x128, .f32⟩
  | 69 => ⟨S50000x128, .i1⟩
  | 70 => ⟨S_, .f32⟩
  | 71 => ⟨S50000x128, .f32⟩
  | 72 => ⟨S50000x128, .f32⟩
  | 73 => ⟨S50000x128, .f32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S50000x64, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x64, .f32⟩
  | 120 => ⟨S850000x1, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S1x64, .f32⟩
  | _ => ⟨S50000x64, .f32⟩

abbrev hbmTy0_1 (i : Nat) : BufTy := match i % 128 with
  | 0 => ⟨S50000x64, .f32⟩
  | 1 => ⟨S50000x64, .f32⟩
  | 2 => ⟨S_, .f32⟩
  | 3 => ⟨S_, .f32⟩
  | 4 => ⟨S50000x64, .f32⟩
  | 5 => ⟨S50000x64, .i1⟩
  | 6 => ⟨S_, .f32⟩
  | 7 => ⟨S50000x64, .f32⟩
  | 8 => ⟨S50000x64, .f32⟩
  | 9 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_call2_v0 : Ref sig .tc := ⟨.hbm, 88, rfl⟩
abbrev main_call2_v1 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_c_15 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_c_17 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_18 : Ref sig .tc := ⟨.hbm, 111, rfl⟩
abbrev main_v75 : Ref sig .tc := ⟨.hbm, 112, rfl⟩
abbrev main_v76 : Ref sig .tc := ⟨.hbm, 113, rfl⟩
abbrev main_c_19 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_20 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_21 : Ref sig .tc := ⟨.hbm, 130, rfl⟩
abbrev main_call3_cst : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v91 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The kernel's program run whole, with its result buffer named.

  The program is four launches among stretches of host operations.  Every weakly fair execution terminates with every
  buffer at the contents the last launch leaves; here that run is stated with the result buffer beside the
  arguments: the result holds what the fold of the host stretches and the launches' write-backs leaves there, and the
  arguments are as launched.
-/
import proofs.«154644_j76510547411355_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    the last launch leaves there and the arguments as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Run

end Cert.KernelIdeal.Whole

end
-- ==== Proof.Spec.lean ====
/-
  The graph-convolution network both programs compute, written once over whole arrays.

  The edge list `e : [2, 800000]` names a source and a destination per edge; every node also gets a self loop, so the
  lists of sources and destinations have 850000 entries.  A node's degree counts the entries of the destination list
  naming it; an entry's weight is the product of the inverse square roots of its two endpoints' degrees (zero where a
  degree is not positive).  One layer multiplies the node features by a weight matrix, sends each entry's source row,
  scaled by the entry's weight, to the entry's destination row and adds what arrives there, adds the bias to every row,
  and applies the leaky rectifier with slope `0.01`.  The network is two such layers.
-/
import proofs.«154644_j76510547411355_1_alg».proof.ReferenceIdeal
import proofs.«154644_j76510547411355_1_alg».proof.Proof.Gen.ReferenceIdeal

noncomputable section

namespace Cert.GCN

open Idealize.ShloMosaic Cert.ReferenceIdeal Cert.ReferenceIdeal.Gen

variable {F : FTy → Type} [FloatOps F]

/-- Row `0` of the edge list followed by the node numbers `0 … 49999`: every entry's source. -/
def sources (e : IVec S2x800000 32) : IVec S850000 32 :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- Row `1` of the edge list followed by the node numbers: every entry's destination. -/
def targets (e : IVec S2x800000 32) : IVec S850000 32 :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- A node's degree: the number of entries whose destination it is, as a sum of ones. -/
def degree (d : IVec S850000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- The inverse square root of a degree where it is positive, zero elsewhere. -/
def invSqrt (deg : FVec F S50000 .f32) : FVec F S50000 .f32 :=
  select (cmpf .ogt deg (broadcastInDim S50000 ![] bcast_S_S50000 (constant S_ .f32 0x00000000#32))) (Host.rsqrt deg)
    (broadcastInDim S50000 ![] bcast_S_S50000 (id (constant S_ .f32 0x00000000#32)))

/-- A node number counted from the end when negative. -/
def wrapped (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- A per-node quantity read at every entry's endpoint `v`. -/
def atNodes (x : FVec F S50000 .f32) (v : IVec S850000 32) : FVec F S850000 .f32 :=
  Host.gather gather_S50000_S850000x1_S850000_n_0_n_n_0_1_1 x (broadcastInDim S850000x1 ![0] bcast_S850000_S850000x1_0 (wrapped v))

/-- An entry's weight: the product of the inverse square roots of its endpoints' degrees. -/
def weights (e : IVec S2x800000 32) : FVec F S850000 .f32 :=
  mulf (atNodes (invSqrt (degree (targets e))) (sources e)) (atNodes (invSqrt (degree (targets e))) (targets e))

/-- Message passing over 128 features: each entry's source row of `xw`, scaled by the entry's weight, summed into the
    entry's destination row. -/
def spread128 (xw : FVec F S50000x128 .f32) (s d : IVec S850000 32) (w : FVec F S850000 .f32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 xw (broadcastInDim S850000x1 ![0] bcast_S850000_S850000x1_0 (wrapped s)))
      (broadcastInDim S850000x128 ![0, 1] bcast_S850000x1_S850000x128_0_1 (broadcastInDim S850000x1 ![0] bcast_S850000_S850000x1_0 w)))

/-- Message passing over 64 features. -/
def spread64 (xw : FVec F S50000x64 .f32) (s d : IVec S850000 32) (w : FVec F S850000 .f32) : FVec F S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 d)
    (mulf (Host.gather gather_S50000x64_S850000x1_S850000x64_1_0_n_n_0_1_164 xw (broadcastInDim S850000x1 ![0] bcast_S850000_S850000x1_0 (wrapped s)))
      (broadcastInDim S850000x64 ![0, 1] bcast_S850000x1_S850000x64_0_1 (broadcastInDim S850000x1 ![0] bcast_S850000_S850000x1_0 w)))

/-- The leaky rectifier with slope `0.01` on 128 features: `v` where `v ≥ 0`, `0.01 · v` elsewhere. -/
def leaky128 (v : FVec F S50000x128 .f32) : FVec F S50000x128 .f32 :=
  select (cmpf .oge v (broadcastInDim S50000x128 ![] bcast_S_S50000x128 (constant S_ .f32 0x00000000#32))) v
    (mulf (broadcastInDim S50000x128 ![] bcast_S_S50000x128 (id (constant S_ .f32 0x3C23D70A#32))) v)

/-- The leaky rectifier on 64 features. -/
def leaky64 (v : FVec F S50000x64 .f32) : FVec F S50000x64 .f32 :=
  select (cmpf .oge v (broadcastInDim S50000x64 ![] bcast_S_S50000x64 (constant S_ .f32 0x00000000#32))) v
    (mulf (broadcastInDim S50000x64 ![] bcast_S_S50000x64 (id (constant S_ .f32 0x3C23D70A#32))) v)

/-- The bias added to every row, 128 features. -/
def biased128 (a : FVec F S50000x128 .f32) (b : FVec F S128 .f32) : FVec F S50000x128 .f32 :=
  addf a (broadcastInDim S50000x128 ![0, 1] bcast_S1x128_S50000x128_0_1 (broadcastInDim S1x128 ![1] bcast_S128_S1x128_1 b))

/-- The bias added to every row, 64 features. -/
def biased64 (a : FVec F S50000x64 .f32) (b : FVec F S64 .f32) : FVec F S50000x64 .f32 :=
  addf a (broadcastInDim S50000x64 ![0, 1] bcast_S1x64_S50000x64_0_1 (broadcastInDim S1x64 ![1] bcast_S64_S1x64_1 b))

/-- The first layer's matrix product `x · W₁`. -/
def product1 (x : FVec F S50000x64 .f32) (w : FVec F S64x128 .f32) : FVec F S50000x128 .f32 :=
  Host.dotGeneral dot_S50000x64_S64x128_S50000x128_1_0_0_1_n_n none x w

/-- The second layer's matrix product `h · W₂`. -/
def product2 (h : FVec F S50000x128 .f32) (w : FVec F S128x64 .f32) : FVec F S50000x64 .f32 :=
  Host.dotGeneral dot_S50000x128_S128x64_S50000x64_1_0_0_1_n_n none h w

/-- The first layer. -/
def layer1 (x : FVec F S50000x64 .f32) (s d : IVec S850000 32) (wt : FVec F S850000 .f32) (w1 : FVec F S64x128 .f32)
    (b1 : FVec F S128 .f32) : FVec F S50000x128 .f32 :=
  leaky128 (biased128 (spread128 (product1 x w1) s d wt) b1)

/-- The second layer. -/
def layer2 (h : FVec F S50000x128 .f32) (s d : IVec S850000 32) (wt : FVec F S850000 .f32) (w2 : FVec F S128x64 .f32)
    (b2 : FVec F S64 .f32) : FVec F S50000x64 .f32 :=
  leaky64 (biased64 (spread64 (product2 h w2) s d wt) b2)

/-- The network: two layers over one graph. -/
def network (x : FVec F S50000x64 .f32) (e : IVec S2x800000 32) (w1 : FVec F S64x128 .f32) (b1 : FVec F S128 .f32)
    (w2 : FVec F S128x64 .f32) (b2 : FVec F S64 .f32) : FVec F S50000x64 .f32 :=
  layer2 (layer1 x (sources e) (targets e) (weights e) w1 b1) (sources e) (targets e) (weights e) w2 b2

end Cert.GCN

end
-- ==== Proof.LibPlainProduct.lean ====
/-
  The plain product of an `[m, k]` matrix by a `[k, n]` matrix, read at an entry, at the ideal values.

  The product contracts the left operand's columns against the right operand's rows.  Accumulated from zero inside a
  kernel, or taken whole on the host, its entry `(a, b)` is `∑ c, A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

variable {m n k : ℕ} {φ₁ φ₂ : FTy}

/-- The left operand's index for output entry `(a, b)` and contraction position `c` is `(a, c)`. -/
theorem lhsIdx_nn (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index for output entry `(a, b)` and contraction position `c` is `(c, b)`. -/
theorem rhsIdx_nn (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- `A · B` accumulated from zero, read at `(a, b)`. -/
theorem matmul_nn_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  rw [lhsIdx_nn w a b c, rhsIdx_nn w a b c]

/-- `A · B` taken whole on the host, read at `(a, b)`. -/
theorem dotGeneral_nn_apply (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (a : Fin m) (b : Fin n) :
    FloatOps.dotGeneral (⟨[1], [0], [0], [1], [], [], w⟩ : DotDims _ _ _) prec sched A B (ix2 a b)
      = ∑ c : Fin k, A (ix2 a c) * B (ix2 c b) := by
  rw [Ideal.dotGeneral_apply,
    ← Equiv.sum_comp (contrEquiv1 (⟨[1], [0], [0], [1], [], [], w⟩ : DotDims _ _ _) k rfl rfl).symm]
  refine Finset.sum_congr rfl fun c _ => ?_
  rw [lhsIdx_nn w a b c, rhsIdx_nn w a b c]

end Cert.PlainProduct

end
-- ==== Proof.Product1.lean ====
/-
  The first matrix product, computed block by block.

  The first launch multiplies ten blocks of 5000 rows of a `[50000, 64]` array by the whole `[64, 128]` weight matrix, each block's
  product accumulated from zero, and writes block `t` of the result from block `t` of the rows.  Row `r` of the result
  therefore depends only on row `r` of the left operand: entry `(r, j)` is `∑ k, X (r, k) · W (k, j)`, the same sum the
  whole product has there, and the ten blocks cover every row.  The roundings to the narrow format on the way into the
  product are the identity at the ideal values.
-/
import proofs.«154644_j76510547411355_1_alg».proof.Proof.Gen.KernelIdeal.Frame
import proofs.«154644_j76510547411355_1_alg».proof.Proof.LibPlainProduct
import Idealize.ShloMosaic.Lib.Pipeline.Value
import Idealize.ShloMosaic.Lib.ValueIdx

noncomputable section

namespace Cert.KernelIdeal.Product1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole product, entry by entry. -/
def rowsTimes (x : FVec Ideal S50000x64 .f32) (w : FVec Ideal S64x128 .f32) : FVec Ideal S50000x128 .f32 :=
  fun i => ∑ k : Fin 64, x (ix2 (i 0) k) * w (ix2 k (i 1))

theorem offsets_zero : (![0, 0] : Fin 2 → Nat) = fun _ => 0 := funext fun a => by fin_cases a <;> rfl

/-- One block's product at an entry: the sum over the shared axis. -/
theorem block_entry (x0 : Vec Ideal S5000x64 .f32) (x1 : Vec Ideal S64x128 .f32) (p : Fin 5000) (q : Fin 128) :
    k0_pay1 (F := Ideal) x0 x1 (ix2 p q) = ∑ k : Fin 64, x0 (ix2 p k) * x1 (ix2 k q) :=
  Cert.PlainProduct.matmul_nn_apply dot_S5000x64_S64x128_S5000x128_1_0_0_1_n_n.wf none _ _ p q

/-- Where the three windows' blocks sit at grid point `t`: the rows' and the result's at block row `t`, the weights whole. -/
theorem block_places : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block row is some grid point's. -/
theorem block_rows_onto : ∀ q0 : Fin 10, ∃ t : Fin cfg0.N, win0_2.index t = ![q0.val, 0] :=
  (by decide +kernel : ∀ q0 : Fin 10, ∃ t : Fin grid0.N, win0_2.index t = ![q0.val, 0])

/-- What grid point `t` writes back is block `t` of the whole product of the arrays the launch finds. -/
theorem flushed_eq (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x64) offsets_zero, View.ld_unit_zero (S := S64x128) offsets_zero]
  obtain ⟨e0, e1, e2, e3, e4, e5⟩ := block_places t
  funext j
  obtain ⟨p, q, rfl⟩ : ∃ (p : Fin 5000) (q : Fin 128), j = ix2 p q := ⟨j 0, j 1, eq_ix2 j⟩
  refine (block_entry (iblk0 V c 0 t) (iblk0 V c 1 t) p q).trans ?_
  show _ = rowsTimes (V c main_arg0) (V c main_arg2) (((cfg0.win 2).blk t).view.emb (ix2 p q))
  unfold rowsTimes
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 128 + 1 * q.val = win0_2.index t (1 : Fin 2) * 128 + 1 * q.val; omega
  have e0 : iblk0 V c 0 t (ix2 p k) = V c main_arg0 (ix2 ((((cfg0.win 2).blk t).view.emb (ix2 p q)) 0) k) := by
    show V c main_arg0 (((cfg0.win 0).blk t).view.emb (ix2 p k)) = _
    exact congrArg (V c main_arg0) h0
  have e1 : iblk0 V c 1 t (ix2 k q) = V c main_arg2 (ix2 k ((((cfg0.win 2).blk t).view.emb (ix2 p q)) 1)) := by
    show V c main_arg2 (((cfg0.win 1).blk t).view.emb (ix2 k q)) = _
    exact congrArg (V c main_arg2) h1
  rw [e0, e1]

/-- An index of the result is in grid point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten blocks cover the result: row `r` is in block `r / 5000`. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := block_rows_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the result array holds the whole product of the two arrays the launch found. -/
theorem final (c : Dev nD) : (dat0 V c).arrAt 2 cfg0.N = rowsTimes (V c main_arg0) (V c main_arg2) :=
  (dat0 V c).arrAt_eq_of_cover 2 _ (fun t _ => flushed_eq V c t) covered

end Cert.KernelIdeal.Product1

end
-- ==== Proof.Product2.lean ====
/-
  The second matrix product, computed block by block.

  The second launch multiplies ten blocks of 5000 rows of a `[50000, 128]` array by the whole `[128, 64]` weight matrix, each block's
  product accumulated from zero, and writes block `t` of the result from block `t` of the rows.  Row `r` of the result
  therefore depends only on row `r` of the left operand: entry `(r, j)` is `∑ k, X (r, k) · W (k, j)`, the same sum the
  whole product has there, and the ten blocks cover every row.  The roundings to the narrow format on the way into the
  product are the identity at the ideal values.
-/
import proofs.«154644_j76510547411355_1_alg».proof.Proof.Gen.KernelIdeal.Frame
import proofs.«154644_j76510547411355_1_alg».proof.Proof.LibPlainProduct
import Idealize.ShloMosaic.Lib.Pipeline.Value
import Idealize.ShloMosaic.Lib.ValueIdx

noncomputable section

namespace Cert.KernelIdeal.Product2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole product, entry by entry. -/
def rowsTimes (x : FVec Ideal S50000x128 .f32) (w : FVec Ideal S128x64 .f32) : FVec Ideal S50000x64 .f32 :=
  fun i => ∑ k : Fin 128, x (ix2 (i 0) k) * w (ix2 k (i 1))

theorem offsets_zero : (![0, 0] : Fin 2 → Nat) = fun _ => 0 := funext fun a => by fin_cases a <;> rfl

/-- One block's product at an entry: the sum over the shared axis. -/
theorem block_entry (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  have hs : shapeCast S5000x128 x0 shapeCasts_S5000x128_S5000x128 = x0 := shapeCast_self _ _
  show matmul (F := Ideal) dot_S5000x128_S128x64_S5000x64_1_0_0_1_n_n none
    (truncf (F := Ideal) .bf16 (shapeCast S5000x128 x0 shapeCasts_S5000x128_S5000x128) bitsLt_bf16_f32)
    (truncf (F := Ideal) .bf16 x1 bitsLt_bf16_f32) (constant (F := Ideal) S5000x64 .f32 0x00000000#32) (ix2 p q) = _
  rw [hs]
  exact Cert.PlainProduct.matmul_nn_apply dot_S5000x128_S128x64_S5000x64_1_0_0_1_n_n.wf none _ _ p q

/-- Where the three windows' blocks sit at grid point `t`: the rows' and the result's at block row `t`, the weights whole. -/
theorem block_places : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block row is some grid point's. -/
theorem block_rows_onto : ∀ q0 : Fin 10, ∃ t : Fin cfg2.N, win2_2.index t = ![q0.val, 0] :=
  (by decide +kernel : ∀ q0 : Fin 10, ∃ t : Fin grid2.N, win2_2.index t = ![q0.val, 0])

/-- What grid point `t` writes back is block `t` of the whole product of the arrays the launch finds. -/
theorem flushed_eq (c : Dev nD) (t : Fin cfg2.N) :
    (dat2 V c).flushed 2 t = ((cfg2.win 2).blk t).view.read (Elt Ideal) (rowsTimes (V c main_v45) (V c main_arg4)) := by
  show (cfg2.win 2).cut (grid2.coords t) ((dat2 V c).after 2 t) = _
  rw [after2_2]
  unfold out2_2
  rw [View.canon_unit_zero offsets_zero]
  simp only [View.ld_unit_zero (S := S5000x128) offsets_zero, View.ld_unit_zero (S := S128x64) offsets_zero]
  obtain ⟨e0, e1, e2, e3, e4, e5⟩ := block_places t
  funext j
  obtain ⟨p, q, rfl⟩ : ∃ (p : Fin 5000) (q : Fin 64), j = ix2 p q := ⟨j 0, j 1, eq_ix2 j⟩
  refine (block_entry (iblk2 V c 0 t) (iblk2 V c 1 t) p q).trans ?_
  show _ = rowsTimes (V c main_v45) (V c main_arg4) (((cfg2.win 2).blk t).view.emb (ix2 p q))
  unfold rowsTimes
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  have e0 : iblk2 V c 0 t (ix2 p k) = V c main_v45 (ix2 ((((cfg2.win 2).blk t).view.emb (ix2 p q)) 0) k) := by
    show V c main_v45 (((cfg2.win 0).blk t).view.emb (ix2 p k)) = _
    exact congrArg (V c main_v45) h0
  have e1 : iblk2 V c 1 t (ix2 k q) = V c main_arg4 (ix2 k ((((cfg2.win 2).blk t).view.emb (ix2 p q)) 1)) := by
    show V c main_arg4 (((cfg2.win 1).blk t).view.emb (ix2 k q)) = _
    exact congrArg (V c main_arg4) h1
  rw [e0, e1]

/-- An index of the result is in grid point `t`'s block iff each coordinate is in the block's range on its axis. -/
theorem mem_block (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The ten blocks cover the result: row `r` is in block `r / 5000`. -/
theorem covered (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := block_rows_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the launch the result array holds the whole product of the two arrays the launch found. -/
theorem final (c : Dev nD) : (dat2 V c).arrAt 2 cfg2.N = rowsTimes (V c main_v45) (V c main_arg4) :=
  (dat2 V c).arrAt_eq_of_cover 2 _ (fun t _ => flushed_eq V c t) covered

end Cert.KernelIdeal.Product2

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.Leak.lean ====
/-
  The leaky rectifier with slope `0.01` on the extended reals, in its two spellings.

  One program keeps `v` where `v > 0`, the other where `v ≥ 0`, and both take `0.01 · v` elsewhere.  The two agree:
  they can only differ at `v = 0`, where `0.01 · 0 = 0 = v`.
-/
import Idealize.ShloMosaic.PureOps.Ideal.Laws

noncomputable section

namespace Cert.Rectifier

open Idealize.ShloMosaic

/-- `v` where `v > 0`, `0.01 · v` elsewhere. -/
def leak (v : EReal) : EReal :=
  Scalar.select (Ideal.cmp .ogt v (Ideal.ofBits .f32 0x00000000#32)) v (Ideal.ofBits .f32 0x3C23D70A#32 * v)

/-- The same function with `v` kept where `v ≥ 0`. -/
theorem leak_eq (v : EReal) :
    leak v = Scalar.select (Ideal.cmp .oge v (Ideal.ofBits .f32 0x00000000#32)) v (Ideal.ofBits .f32 0x3C23D70A#32 * v) := by
  unfold leak
  rw [Ideal.ofBits_zero_f32]
  unfold Scalar.select Ideal.cmp
  by_cases h : (0 : EReal) < v
  · simp [h, le_of_lt h]
  · by_cases h0 : (0 : EReal) ≤ v
    · have hv : v = 0 := le_antisymm (not_lt.mp h) h0
      subst hv
      simp
    · simp [h, h0]

end Cert.Rectifier

end
-- ==== Proof.Rectify1.lean ====
/-
  The first bias-and-rectifier launch, block by block.

  The launch adds the one-row bias to every row of a `[50000, 128]` array and applies the leaky rectifier: with
  `v = a (r, j) + b (0, j)` the result's entry `(r, j)` is `v` where `v > 0` and `0.01 · v` elsewhere.  Block `t` of the
  result is computed from block `t` of the array and the whole bias row, entry by entry, so the ten blocks of
  5000 rows together hold that function of the two arrays at every entry.
-/
import proofs.«154644_j76510547411355_1_alg».proof.Proof.Gen.KernelIdeal.Frame
import proofs.«154644_j76510547411355_1_alg».proof.Proof.LibRowsProduct
import proofs.«154644_j76510547411355_1_alg».proof.Proof.Leak
import Idealize.ShloMosaic.Lib.Pipeline.Value
import Idealize.ShloMosaic.Lib.ValueIdx

noncomputable section

namespace Cert.KernelIdeal.Rectify1

open Cert.KernelIdeal Cert.KernelIdeal.Gen Idealize.ShloMosaic Idealize.ShloMosaic.TcCoe Idealize.ShloMosaic.ValueIdx Idealize.SL.Sem
open Idealize.ShloMosaic.Pipeline (Dat)
open Cert.Rectifier (leak)

variable (V : (c : Dev nD) → (b : Ref sig .tc) → Buf (Elt Ideal) ((c : Thread nD τ).loc b))

/-- The whole result, entry by entry: the rectifier of the entry plus the bias of its column. -/
def rectified (a : FVec Ideal S50000x128 .f32) (b : FVec Ideal S1x128 .f32) : FVec Ideal S50000x128 .f32 :=
  fun i => leak (a i + b (ix2 (0 : Fin 1) (i 1)))

theorem offsets_zero : (![0, 0] : Fin 2 → Nat) = fun _ => 0 := funext fun a => by fin_cases a <;> rfl

/-- One block's result at an entry. -/
theorem block_entry (x0 : Vec Ideal S5000x128 .f32) (x1 : Vec Ideal S1x128 .f32) (p : Fin 5000) (q : Fin 128) :
    k1_pay1 (F := Ideal) x0 x1 (ix2 p q) = leak (x0 (ix2 p q) + x1 (ix2 (0 : Fin 1) q)) := by
  have ha : shapeCast S5000x128 x0 shapeCasts_S5000x128_S5000x128 (ix2 p q) = x0 (ix2 p q) := by rw [shapeCast_self]
  have hb : broadcastTo S5000x128 (shapeCast S1x128 x1 shapeCasts_S1x128_S1x128) broadcasts_S1x128_S5000x128 (ix2 p q) = x1 (ix2 (0 : Fin 1) q) := by
    rw [Cert.RowsProduct.broadcastTo_1n_an_apply, shapeCast_self]
  show leak (shapeCast S5000x128 x0 shapeCasts_S5000x128_S5000x128 (ix2 p q)
    + broadcastTo S5000x128 (shapeCast S1x128 x1 shapeCasts_S1x128_S1x128) broadcasts_S1x128_S5000x128 (ix2 p q)) = _
  rw [ha, hb]

/-- Where the three windows' blocks sit at grid point `t`: the array's and the result's at block row `t`, the bias whole. -/
theorem block_places : ∀ t : Fin cfg1.N, win1_0.index t (0 : Fin 2) = win1_2.index t (0 : Fin 2)
    ∧ win1_0.index t (1 : Fin 2) = win1_2.index t (1 : Fin 2) ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block row is some grid point's. -/
theorem block_rows_onto : ∀ q0 : Fin 10, ∃ t : Fin cfg1.N, win1_2.index t = ![q0.val, 0] :=
  (by decide +kernel : ∀ q0 : Fin 10, ∃ t : Fin grid1.N, win1_2.index t = ![q0.val, 0])

/-- What grid point `t` writes back is block `t` of the whole result of the arrays the launch finds. -/
theorem flushed_eq (c : Dev nD) (t : Fin cfg1.N) :
    (dat1 V c).flushed 2 t = ((cfg1.win 2).blk t).view.read (Elt Ideal) (rectified (V c main_v43) (V c main_v44)) := by
  show (cfg1.win 2).cut (grid1.coords t) ((dat1 V c).after 2 t) = _
  rw [after1_2]
  unfold out1_2
  rw [View.canon_unit_zero offsets_zero]
  simp only [View.ld_unit_zero (S := S5000x128) offsets_zero, View.ld_unit_zero (S := S1x128) offsets_zero]
  obtain ⟨e0, e1, e2, e3, e4, e5⟩ := block_places t
  funext j
  obtain ⟨p, q, rfl⟩ : ∃ (p : Fin 5000) (q : Fin 128), j = ix2 p q := ⟨j 0, j 1, eq_ix2 j⟩
  refine (block_entry (iblk1 V c 0 t) (iblk1 V c 1 t) p q).trans ?_
  show _ = rectified (V c main_v43) (V c main_v44) (((cfg1.win 2).blk t).view.emb (ix2 p q))
  unfold rectified
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  have e0 : iblk1 V c 0 t (ix2 p q) = V c main_v43 (((cfg1.win 2).blk t).view.emb (ix2 p q)) := by
    show V c main_v43 (((cfg1.win 0).blk t).view.emb (ix2 p q)) = _
    exact congrArg (V c main_v43) h0
  have e1 : iblk1 V c 1 t (ix2 (0 : Fin 1) q) = V c main_v44 (ix2 (0 : Fin 1) ((((cfg1.win 2).blk t).view.emb (ix2 p q)) 1)) := by
    show V c main_v44 (((cfg1.win 1).blk t).view.emb (ix2 (0 : Fin 1) q)) = _
    exact congrArg (V c main_v44) h1
  rw [e0, e1]

/-- An index of the result is in grid point `t`'s block iff each coordinate is in the block's range on its axis. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The ten blocks cover the result: row `r` is in block `r / 5000`. -/
theorem covered (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := block_rows_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the launch the result array holds the rectified biased array the launch found. -/
theorem final (c : Dev nD) : (dat1 V c).arrAt 2 cfg1.N = rectified (V c main_v43) (V c main_v44) :=
  (dat1 V c).arrAt_eq_of_cover 2 _ (fun t _ => flushed_eq V c t) covered

end Cert.KernelIdeal.Rectify1

end
-- ==== Proof.Rectify2.lean ====
/-
  The second bias-and-rectifier launch, block by block.

  The launch adds the one-row bias to every row of a `[50000, 64]` array and applies the leaky rectifier: with
  `v = a (r, j) + b (0, j)` the result's entry `(r, j)` is `v` where `v > 0` and `0.01 · v` elsewhere.  Block `t` of the
  result is computed from block `t` of the array and the whole bias row, entry by entry, so the ten blocks of
  5000 rows together hold that function of the two arrays at every entry.
-/
import proofs.«154644_j76510547411355_1_alg».proof.Proof.Gen.KernelIdeal.Frame
import proofs.«154644_j76510547411355_1_alg».proof.Proof.LibRowsProduct
import proofs.«154644_j76510547411355_1_alg».proof.Proof.Leak
import Idealize.ShloMosaic.Lib.Pipeline.Value
import Idealize.ShloMosaic.Lib.ValueIdx

noncomputable section

namespace Cert.KernelIdeal.Rectify2

open Cert.KernelIdeal Cert.KernelIdeal.Gen Idealize.ShloMosaic Idealize.ShloMosaic.TcCoe Idealize.ShloMosaic.ValueIdx Idealize.SL.Sem
open Idealize.ShloMosaic.Pipeline (Dat)
open Cert.Rectifier (leak)

variable (V : (c : Dev nD) → (b : Ref sig .tc) → Buf (Elt Ideal) ((c : Thread nD τ).loc b))

/-- The whole result, entry by entry: the rectifier of the entry plus the bias of its column. -/
def rectified (a : FVec Ideal S50000x64 .f32) (b : FVec Ideal S1x64 .f32) : FVec Ideal S50000x64 .f32 :=
  fun i => leak (a i + b (ix2 (0 : Fin 1) (i 1)))

theorem offsets_zero : (![0, 0] : Fin 2 → Nat) = fun _ => 0 := funext fun a => by fin_cases a <;> rfl

/-- One block's result at an entry. -/
theorem block_entry (x0 : Vec Ideal S5000x64 .f32) (x1 : Vec Ideal S1x64 .f32) (p : Fin 5000) (q : Fin 64) :
    k3_pay1 (F := Ideal) x0 x1 (ix2 p q) = leak (x0 (ix2 p q) + x1 (ix2 (0 : Fin 1) q)) := by
  have ha : shapeCast S5000x64 x0 shapeCasts_S5000x64_S5000x64 (ix2 p q) = x0 (ix2 p q) := by rw [shapeCast_self]
  have hb : broadcastTo S5000x64 (shapeCast S1x64 x1 shapeCasts_S1x64_S1x64) broadcasts_S1x64_S5000x64 (ix2 p q) = x1 (ix2 (0 : Fin 1) q) := by
    rw [Cert.RowsProduct.broadcastTo_1n_an_apply, shapeCast_self]
  show leak (shapeCast S5000x64 x0 shapeCasts_S5000x64_S5000x64 (ix2 p q)
    + broadcastTo S5000x64 (shapeCast S1x64 x1 shapeCasts_S1x64_S1x64) broadcasts_S1x64_S5000x64 (ix2 p q)) = _
  rw [ha, hb]

/-- Where the three windows' blocks sit at grid point `t`: the array's and the result's at block row `t`, the bias whole. -/
theorem block_places : ∀ t : Fin cfg3.N, win3_0.index t (0 : Fin 2) = win3_2.index t (0 : Fin 2)
    ∧ win3_0.index t (1 : Fin 2) = win3_2.index t (1 : Fin 2) ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every block row is some grid point's. -/
theorem block_rows_onto : ∀ q0 : Fin 10, ∃ t : Fin cfg3.N, win3_2.index t = ![q0.val, 0] :=
  (by decide +kernel : ∀ q0 : Fin 10, ∃ t : Fin grid3.N, win3_2.index t = ![q0.val, 0])

/-- What grid point `t` writes back is block `t` of the whole result of the arrays the launch finds. -/
theorem flushed_eq (c : Dev nD) (t : Fin cfg3.N) :
    (dat3 V c).flushed 2 t = ((cfg3.win 2).blk t).view.read (Elt Ideal) (rectified (V c main_v59) (V c main_v60)) := by
  show (cfg3.win 2).cut (grid3.coords t) ((dat3 V c).after 2 t) = _
  rw [after3_2]
  unfold out3_2
  rw [View.canon_unit_zero offsets_zero]
  simp only [View.ld_unit_zero (S := S5000x64) offsets_zero, View.ld_unit_zero (S := S1x64) offsets_zero]
  obtain ⟨e0, e1, e2, e3, e4, e5⟩ := block_places t
  funext j
  obtain ⟨p, q, rfl⟩ : ∃ (p : Fin 5000) (q : Fin 64), j = ix2 p q := ⟨j 0, j 1, eq_ix2 j⟩
  refine (block_entry (iblk3 V c 0 t) (iblk3 V c 1 t) p q).trans ?_
  show _ = rectified (V c main_v59) (V c main_v60) (((cfg3.win 2).blk t).view.emb (ix2 p q))
  unfold rectified
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q) = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  have e0 : iblk3 V c 0 t (ix2 p q) = V c main_v59 (((cfg3.win 2).blk t).view.emb (ix2 p q)) := by
    show V c main_v59 (((cfg3.win 0).blk t).view.emb (ix2 p q)) = _
    exact congrArg (V c main_v59) h0
  have e1 : iblk3 V c 1 t (ix2 (0 : Fin 1) q) = V c main_v60 (ix2 (0 : Fin 1) ((((cfg3.win 2).blk t).view.emb (ix2 p q)) 1)) := by
    show V c main_v60 (((cfg3.win 1).blk t).view.emb (ix2 (0 : Fin 1) q)) = _
    exact congrArg (V c main_v60) h1
  rw [e0, e1]

/-- An index of the result is in grid point `t`'s block iff each coordinate is in the block's range on its axis. -/
theorem mem_block (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The ten blocks cover the result: row `r` is in block `r / 5000`. -/
theorem covered (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := block_rows_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the launch the result array holds the rectified biased array the launch found. -/
theorem final (c : Dev nD) : (dat3 V c).arrAt 2 cfg3.N = rectified (V c main_v59) (V c main_v60) :=
  (dat3 V c).arrAt_eq_of_cover 2 _ (fun t _ => flushed_eq V c t) covered

end Cert.KernelIdeal.Rectify2

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.Bridge.lean ====
/-
  The launches' block-by-block functions are the network's whole-array operations, at the ideal values.

  A launch's matrix product, written as one sum per entry, is the host's whole product.  A launch's rectified biased
  array, with the bias handed over as a one-row matrix, is the host's bias broadcast down the rows followed by the
  rectifier in its `≥` spelling: the bias a row entry sees is the bias vector's entry of its column either way, and
  the two spellings of the rectifier are one function.
-/
import proofs.«154644_j76510547411355_1_alg».proof.Proof.Spec
import proofs.«154644_j76510547411355_1_alg».proof.Proof.Product1
import proofs.«154644_j76510547411355_1_alg».proof.Proof.Product2
import proofs.«154644_j76510547411355_1_alg».proof.Proof.Rectify1
import proofs.«154644_j76510547411355_1_alg».proof.Proof.Rectify2
import proofs.«154644_j76510547411355_1_alg».proof.Proof.Leak
import proofs.«154644_j76510547411355_1_alg».proof.Proof.LibPlainProduct
import proofs.«154644_j76510547411355_1_alg».proof.Proof.LibBroadcast
import Idealize.ShloMosaic.Lib.Pipeline.Value
import Idealize.ShloMosaic.Lib.ValueIdx

noncomputable section

namespace Cert.GCN.Bridge

open Idealize.ShloMosaic Idealize.ShloMosaic.ValueIdx

/-- A vector broadcast to a one-row matrix and then down `a` rows reads, at `(p, q)`, the vector's entry `q`. -/
theorem bias_rows_apply {α : Type} {n a : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (p : Fin a) (q : Fin n) :
    broadcastInDim ⟨2, ![a, n]⟩ ![0, 1] h2 (broadcastInDim ⟨2, ![1, n]⟩ ![1] h1 b) (ix2 p q) = b (ix1 q) := by
  have e2 := broadcastInDim_apply (![0, 1] : Fin 2 → Fin 2) h2 (broadcastInDim ⟨2, ![1, n]⟩ ![1] h1 b) (ix2 p q) (ix2 (0 : Fin 1) q) (fun ax => by
    match ax with
    | ⟨0, _⟩ => rfl
    | ⟨1, _⟩ =>
      show q.val = if n = 1 then 0 else q.val
      split
      · have := q.isLt; omega
      · rfl)
  have e1 := broadcastInDim_apply (![1] : Fin 1 → Fin 2) h1 b (ix2 (0 : Fin 1) q) (ix1 q) (fun ax => by
    match ax with
    | ⟨0, _⟩ =>
      show q.val = if n = 1 then 0 else q.val
      split
      · have := q.isLt; omega
      · rfl)
  exact e2.trans e1

/-- The first product, entry by entry, is the host's whole product. -/
theorem product1_eq (x : FVec Ideal Cert.ReferenceIdeal.S50000x64 .f32) (w : FVec Ideal Cert.ReferenceIdeal.S64x128 .f32) :
    Cert.KernelIdeal.Product1.rowsTimes x w = Cert.GCN.product1 (F := Ideal) x w := by
  funext i
  obtain ⟨a, b, rfl⟩ : ∃ (a : Fin 50000) (b : Fin 128), i = ix2 a b := ⟨i 0, i 1, eq_ix2 i⟩
  exact (Cert.PlainProduct.dotGeneral_nn_apply Cert.ReferenceIdeal.dot_S50000x64_S64x128_S50000x128_1_0_0_1_n_n.wf none _ x w a b).symm

/-- The second product, entry by entry, is the host's whole product. -/
theorem product2_eq (x : FVec Ideal Cert.ReferenceIdeal.S50000x128 .f32) (w : FVec Ideal Cert.ReferenceIdeal.S128x64 .f32) :
    Cert.KernelIdeal.Product2.rowsTimes x w = Cert.GCN.product2 (F := Ideal) x w := by
  funext i
  obtain ⟨a, b, rfl⟩ : ∃ (a : Fin 50000) (b : Fin 64), i = ix2 a b := ⟨i 0, i 1, eq_ix2 i⟩
  exact (Cert.PlainProduct.dotGeneral_nn_apply Cert.ReferenceIdeal.dot_S50000x128_S128x64_S50000x64_1_0_0_1_n_n.wf none _ x w a b).symm

/-- The first launch's rectified biased array, its bias the vector `b` as a one-row matrix, is the host's. -/
theorem rectified1_eq (a : FVec Ideal Cert.ReferenceIdeal.S50000x128 .f32) (b : FVec Ideal Cert.ReferenceIdeal.S128 .f32)
    (h : Cert.KernelIdeal.S128.ShapeCasts Cert.KernelIdeal.S1x128) :
    Cert.KernelIdeal.Rectify1.rectified a (shapeCast Cert.KernelIdeal.S1x128 b h)
      = Cert.GCN.leaky128 (F := Ideal) (Cert.GCN.biased128 a b) := by
  funext i
  obtain ⟨p, q, rfl⟩ : ∃ (p : Fin 50000) (q : Fin 128), i = ix2 p q := ⟨i 0, i 1, eq_ix2 i⟩
  have hb : shapeCast Cert.KernelIdeal.S1x128 b h (ix2 (0 : Fin 1) q) = b (ix1 q) := Cert.Layout.shapeCast_row_apply b h q
  have hr : broadcastInDim Cert.ReferenceIdeal.S50000x128 ![0, 1] Cert.ReferenceIdeal.Facts₀.bcast_S1x128_S50000x128_0_1
      (broadcastInDim Cert.ReferenceIdeal.S1x128 ![1] Cert.ReferenceIdeal.Facts₀.bcast_S128_S1x128_1 b) (ix2 p q) = b (ix1 q) :=
    bias_rows_apply b _ _ p q
  show Cert.Rectifier.leak (a (ix2 p q) + shapeCast Cert.KernelIdeal.S1x128 b h (ix2 (0 : Fin 1) q)) = _
  rw [hb, Cert.Rectifier.leak_eq, ← hr]
  rfl

/-- The second launch's rectified biased array is the host's. -/
theorem rectified2_eq (a : FVec Ideal Cert.ReferenceIdeal.S50000x64 .f32) (b : FVec Ideal Cert.ReferenceIdeal.S64 .f32)
    (h : Cert.KernelIdeal.S64.ShapeCasts Cert.KernelIdeal.S1x64) :
    Cert.KernelIdeal.Rectify2.rectified a (shapeCast Cert.KernelIdeal.S1x64 b h)
      = Cert.GCN.leaky64 (F := Ideal) (Cert.GCN.biased64 a b) := by
  funext i
  obtain ⟨p, q, rfl⟩ : ∃ (p : Fin 50000) (q : Fin 64), i = ix2 p q := ⟨i 0, i 1, eq_ix2 i⟩
  have hb : shapeCast Cert.KernelIdeal.S1x64 b h (ix2 (0 : Fin 1) q) = b (ix1 q) := Cert.Layout.shapeCast_row_apply b h q
  have hr : broadcastInDim Cert.ReferenceIdeal.S50000x64 ![0, 1] Cert.ReferenceIdeal.Facts₀.bcast_S1x64_S50000x64_0_1
      (broadcastInDim Cert.ReferenceIdeal.S1x64 ![1] Cert.ReferenceIdeal.Facts₀.bcast_S64_S1x64_1 b) (ix2 p q) = b (ix1 q) :=
    bias_rows_apply b _ _ p q
  show Cert.Rectifier.leak (a (ix2 p q) + shapeCast Cert.KernelIdeal.S1x64 b h (ix2 (0 : Fin 1) q)) = _
  rw [hb, Cert.Rectifier.leak_eq, ← hr]
  rfl

end Cert.GCN.Bridge

end
-- ==== Proof.KernelRead.lean ====
/-
  The kernel program's result, read back to the arguments.

  The program's buffers after each stretch of host operations and each launch are a fold from the launch memory.  Read
  at the buffers that matter, the fold is: the source and destination lists and the weights of the graph (computed once,
  before the first launch, and never overwritten); the first product; its rows spread along the graph; the first
  layer's output; the second product; its rows spread along the graph; the result.  Each host stretch is read as the
  whole-array function of `Cert.GCN` it applies, each launch as its block-by-block function, which is the host's
  (`Cert.GCN.Bridge`); the result is the network of the arguments.
-/
import proofs.«154644_j76510547411355_1_alg».proof.Proof.Gen.KernelIdeal.Frame
import proofs.«154644_j76510547411355_1_alg».proof.Proof.Spec
import proofs.«154644_j76510547411355_1_alg».proof.Proof.Product1
import proofs.«154644_j76510547411355_1_alg».proof.Proof.Product2
import proofs.«154644_j76510547411355_1_alg».proof.Proof.Rectify1
import proofs.«154644_j76510547411355_1_alg».proof.Proof.Rectify2
import proofs.«154644_j76510547411355_1_alg».proof.Proof.Bridge
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.StableHlo

/-! ## The host stretches, from any contents -/

section Host

variable {F : FTy → Type} [FloatOps F] (W : Valuation τ sig (Elt F))

/-- The operations before the first launch, from contents `W`. -/
abbrev before1 : Valuation τ sig (Elt F) := after hostOps0_2 (after hostOps0_1 (after hostOps0 W))

theorem before1_sources : before1 W (Proc.devRef .tc main_v5) = Cert.GCN.sources (W (Proc.devRef .tc main_arg1)) := by
  after_results
  rfl

theorem before1_targets : before1 W (Proc.devRef .tc main_v6) = Cert.GCN.targets (W (Proc.devRef .tc main_arg1)) := by
  after_results
  rfl

set_option maxHeartbeats 2000000 in
theorem before1_weights : before1 W (Proc.devRef .tc main_v29) = Cert.GCN.weights (W (Proc.devRef .tc main_arg1)) := by
  after_results_simp
  rfl

theorem before1_arg0 : before1 W (Proc.devRef .tc main_arg0) = W (Proc.devRef .tc main_arg0) := by after_results
theorem before1_arg2 : before1 W (Proc.devRef .tc main_arg2) = W (Proc.devRef .tc main_arg2) := by after_results
theorem before1_arg3 : before1 W (Proc.devRef .tc main_arg3) = W (Proc.devRef .tc main_arg3) := by after_results
theorem before1_arg4 : before1 W (Proc.devRef .tc main_arg4) = W (Proc.devRef .tc main_arg4) := by after_results
theorem before1_arg5 : before1 W (Proc.devRef .tc main_arg5) = W (Proc.devRef .tc main_arg5) := by after_results

attribute [local irreducible] Host.scatterAdd Host.gather in
set_option maxHeartbeats 1000000 in
/-- Between the first and the second launch: the first product's rows spread along the graph, the bias as a row. -/
theorem between12_spread : after hostOps1 W (Proc.devRef .tc main_v43)
    = Cert.GCN.spread128 (W (Proc.devRef .tc main_v30)) (W (Proc.devRef .tc main_v5)) (W (Proc.devRef .tc main_v6)) (W (Proc.devRef .tc main_v29)) := by
  after_results
  rfl

theorem between12_bias : after hostOps1 W (Proc.devRef .tc main_v44)
    = shapeCast S1x128 (W (Proc.devRef .tc main_arg3)) Facts₀.shapeCasts_S128_S1x128 := by
  after_results
  rfl

theorem between12_v5 : after hostOps1 W (Proc.devRef .tc main_v5) = W (Proc.devRef .tc main_v5) := by after_results
theorem between12_v6 : after hostOps1 W (Proc.devRef .tc main_v6) = W (Proc.devRef .tc main_v6) := by after_results
theorem between12_v29 : after hostOps1 W (Proc.devRef .tc main_v29) = W (Proc.devRef .tc main_v29) := by after_results
theorem between12_arg4 : after hostOps1 W (Proc.devRef .tc main_arg4) = W (Proc.devRef .tc main_arg4) := by after_results
theorem between12_arg5 : after hostOps1 W (Proc.devRef .tc main_arg5) = W (Proc.devRef .tc main_arg5) := by after_results

attribute [local irreducible] Host.scatterAdd Host.gather in
set_option maxHeartbeats 1000000 in
/-- Between the third and the fourth launch: the second product's rows spread along the graph, the bias as a row. -/
theorem between34_spread : after hostOps3 W (Proc.devRef .tc main_v59)
    = Cert.GCN.spread64 (W (Proc.devRef .tc main_v46)) (W (Proc.devRef .tc main_v5)) (W (Proc.devRef .tc main_v6)) (W (Proc.devRef .tc main_v29)) := by
  after_results
  rfl

theorem between34_bias : after hostOps3 W (Proc.devRef .tc main_v60)
    = shapeCast S1x64 (W (Proc.devRef .tc main_arg5)) Facts₀.shapeCasts_S64_S1x64 := by
  after_results
  rfl

end Host

/-! ## The fold, stage by stage, at the ideal values -/

section Stages

variable (m : (ℓ : Loc nD τ sig) → Buf (Elt Ideal) ℓ) (ρ : Dev nD → PrngReg) (c : Dev nD)

/-- The six argument arrays as launched. -/
abbrev feat : FVec Ideal S50000x64 .f32 := m ((c.tc : Thread nD τ).loc main_arg0)
abbrev edges : IVec S2x800000 32 := m ((c.tc : Thread nD τ).loc main_arg1)
abbrev wt1 : FVec Ideal S64x128 .f32 := m ((c.tc : Thread nD τ).loc main_arg2)
abbrev bs1 : FVec Ideal S128 .f32 := m ((c.tc : Thread nD τ).loc main_arg3)
abbrev wt2 : FVec Ideal S128x64 .f32 := m ((c.tc : Thread nD τ).loc main_arg4)
abbrev bs2 : FVec Ideal S64 .f32 := m ((c.tc : Thread nD τ).loc main_arg5)

/-! ### Entering the first launch -/

theorem at3_sources : W3 m ρ c (Proc.devRef .tc main_v5) = Cert.GCN.sources (edges m c) := before1_sources (W0 m ρ c)
theorem at3_targets : W3 m ρ c (Proc.devRef .tc main_v6) = Cert.GCN.targets (edges m c) := before1_targets (W0 m ρ c)
theorem at3_weights : W3 m ρ c (Proc.devRef .tc main_v29) = Cert.GCN.weights (F := Ideal) (edges m c) := before1_weights (W0 m ρ c)
theorem at3_arg0 : W3 m ρ c (Proc.devRef .tc main_arg0) = feat m c := before1_arg0 (W0 m ρ c)
theorem at3_arg2 : W3 m ρ c (Proc.devRef .tc main_arg2) = wt1 m c := before1_arg2 (W0 m ρ c)
theorem at3_arg3 : W3 m ρ c (Proc.devRef .tc main_arg3) = bs1 m c := before1_arg3 (W0 m ρ c)
theorem at3_arg4 : W3 m ρ c (Proc.devRef .tc main_arg4) = wt2 m c := before1_arg4 (W0 m ρ c)
theorem at3_arg5 : W3 m ρ c (Proc.devRef .tc main_arg5) = bs2 m c := before1_arg5 (W0 m ρ c)

/-! ### Leaving the first launch: the first product -/

theorem at4_sources : W4 m ρ c (Proc.devRef .tc main_v5) = Cert.GCN.sources (edges m c) :=
  (W4_of_ne m ρ c main_v5 (by decide)).trans (at3_sources m ρ c)
theorem at4_targets : W4 m ρ c (Proc.devRef .tc main_v6) = Cert.GCN.targets (edges m c) :=
  (W4_of_ne m ρ c main_v6 (by decide)).trans (at3_targets m ρ c)
theorem at4_weights : W4 m ρ c (Proc.devRef .tc main_v29) = Cert.GCN.weights (F := Ideal) (edges m c) :=
  (W4_of_ne m ρ c main_v29 (by decide)).trans (at3_weights m ρ c)
theorem at4_arg3 : W4 m ρ c (Proc.devRef .tc main_arg3) = bs1 m c := (W4_of_ne m ρ c main_arg3 (by decide)).trans (at3_arg3 m ρ c)
theorem at4_arg4 : W4 m ρ c (Proc.devRef .tc main_arg4) = wt2 m c := (W4_of_ne m ρ c main_arg4 (by decide)).trans (at3_arg4 m ρ c)
theorem at4_arg5 : W4 m ρ c (Proc.devRef .tc main_arg5) = bs2 m c := (W4_of_ne m ρ c main_arg5 (by decide)).trans (at3_arg5 m ρ c)

theorem at4_product : W4 m ρ c (Proc.devRef .tc main_v30) = Cert.GCN.product1 (feat m c) (wt1 m c) :=
  (W4_arr m ρ c 2).trans ((Cert.KernelIdeal.Product1.final (V3 m ρ) c).trans
    ((congrArg₂ Cert.KernelIdeal.Product1.rowsTimes (at3_arg0 m ρ c) (at3_arg2 m ρ c)).trans (Cert.GCN.Bridge.product1_eq _ _)))

/-! ### Entering the second launch: the product's rows spread along the graph -/

theorem at5_spread : W5 m ρ c (Proc.devRef .tc main_v43)
    = Cert.GCN.spread128 (Cert.GCN.product1 (feat m c) (wt1 m c)) (Cert.GCN.sources (edges m c)) (Cert.GCN.targets (edges m c)) (Cert.GCN.weights (F := Ideal) (edges m c)) := by
  refine (between12_spread (W4 m ρ c)).trans ?_
  rw [at4_product m ρ c, at4_sources m ρ c, at4_targets m ρ c, at4_weights m ρ c]

theorem at5_bias : W5 m ρ c (Proc.devRef .tc main_v44) = shapeCast S1x128 (bs1 m c) Facts₀.shapeCasts_S128_S1x128 := by
  refine (between12_bias (W4 m ρ c)).trans ?_
  rw [at4_arg3 m ρ c]

theorem at5_sources : W5 m ρ c (Proc.devRef .tc main_v5) = Cert.GCN.sources (edges m c) := (between12_v5 (W4 m ρ c)).trans (at4_sources m ρ c)
theorem at5_targets : W5 m ρ c (Proc.devRef .tc main_v6) = Cert.GCN.targets (edges m c) := (between12_v6 (W4 m ρ c)).trans (at4_targets m ρ c)
theorem at5_weights : W5 m ρ c (Proc.devRef .tc main_v29) = Cert.GCN.weights (F := Ideal) (edges m c) := (between12_v29 (W4 m ρ c)).trans (at4_weights m ρ c)
theorem at5_arg4 : W5 m ρ c (Proc.devRef .tc main_arg4) = wt2 m c := (between12_arg4 (W4 m ρ c)).trans (at4_arg4 m ρ c)
theorem at5_arg5 : W5 m ρ c (Proc.devRef .tc main_arg5) = bs2 m c := (between12_arg5 (W4 m ρ c)).trans (at4_arg5 m ρ c)

/-! ### Leaving the second launch: the first layer's output -/

/-- The first layer of the arguments. -/
abbrev hidden : FVec Ideal Cert.ReferenceIdeal.S50000x128 .f32 :=
  Cert.GCN.layer1 (feat m c) (Cert.GCN.sources (edges m c)) (Cert.GCN.targets (edges m c)) (Cert.GCN.weights (F := Ideal) (edges m c)) (wt1 m c) (bs1 m c)

theorem at6_hidden : W6 m ρ c (Proc.devRef .tc main_v45) = hidden m c :=
  (W6_arr m ρ c 2).trans ((Cert.KernelIdeal.Rectify1.final (V5 m ρ) c).trans
    ((congrArg₂ Cert.KernelIdeal.Rectify1.rectified (at5_spread m ρ c) (at5_bias m ρ c)).trans (Cert.GCN.Bridge.rectified1_eq _ _ _)))

theorem at6_sources : W6 m ρ c (Proc.devRef .tc main_v5) = Cert.GCN.sources (edges m c) := (W6_of_ne m ρ c main_v5 (by decide)).trans (at5_sources m ρ c)
theorem at6_targets : W6 m ρ c (Proc.devRef .tc main_v6) = Cert.GCN.targets (edges m c) := (W6_of_ne m ρ c main_v6 (by decide)).trans (at5_targets m ρ c)
theorem at6_weights : W6 m ρ c (Proc.devRef .tc main_v29) = Cert.GCN.weights (F := Ideal) (edges m c) := (W6_of_ne m ρ c main_v29 (by decide)).trans (at5_weights m ρ c)
theorem at6_arg4 : W6 m ρ c (Proc.devRef .tc main_arg4) = wt2 m c := (W6_of_ne m ρ c main_arg4 (by decide)).trans (at5_arg4 m ρ c)
theorem at6_arg5 : W6 m ρ c (Proc.devRef .tc main_arg5) = bs2 m c := (W6_of_ne m ρ c main_arg5 (by decide)).trans (at5_arg5 m ρ c)

/-! ### Leaving the third launch: the second product -/

theorem at7_product : W7 m ρ c (Proc.devRef .tc main_v46) = Cert.GCN.product2 (hidden m c) (wt2 m c) :=
  (W7_arr m ρ c 2).trans ((Cert.KernelIdeal.Product2.final (V6 m ρ) c).trans
    ((congrArg₂ Cert.KernelIdeal.Product2.rowsTimes (at6_hidden m ρ c) (at6_arg4 m ρ c)).trans (Cert.GCN.Bridge.product2_eq _ _)))

theorem at7_sources : W7 m ρ c (Proc.devRef .tc main_v5) = Cert.GCN.sources (edges m c) := (W7_of_ne m ρ c main_v5 (by decide)).trans (at6_sources m ρ c)
theorem at7_targets : W7 m ρ c (Proc.devRef .tc main_v6) = Cert.GCN.targets (edges m c) := (W7_of_ne m ρ c main_v6 (by decide)).trans (at6_targets m ρ c)
theorem at7_weights : W7 m ρ c (Proc.devRef .tc main_v29) = Cert.GCN.weights (F := Ideal) (edges m c) := (W7_of_ne m ρ c main_v29 (by decide)).trans (at6_weights m ρ c)
theorem at7_arg5 : W7 m ρ c (Proc.devRef .tc main_arg5) = bs2 m c := (W7_of_ne m ρ c main_arg5 (by decide)).trans (at6_arg5 m ρ c)

/-! ### Entering the fourth launch -/

theorem at8_spread : W8 m ρ c (Proc.devRef .tc main_v59)
    = Cert.GCN.spread64 (Cert.GCN.product2 (hidden m c) (wt2 m c)) (Cert.GCN.sources (edges m c)) (Cert.GCN.targets (edges m c)) (Cert.GCN.weights (F := Ideal) (edges m c)) := by
  refine (between34_spread (W7 m ρ c)).trans ?_
  rw [at7_product m ρ c, at7_sources m ρ c, at7_targets m ρ c, at7_weights m ρ c]

theorem at8_bias : W8 m ρ c (Proc.devRef .tc main_v60) = shapeCast S1x64 (bs2 m c) Facts₀.shapeCasts_S64_S1x64 := by
  refine (between34_bias (W7 m ρ c)).trans ?_
  rw [at7_arg5 m ρ c]

/-! ### The result -/

/-- After the last launch the result buffer holds the network of the arguments. -/
theorem result_eq : W9 m ρ c (Proc.devRef .tc main_v61)
    = Cert.GCN.network (feat m c) (edges m c) (wt1 m c) (bs1 m c) (wt2 m c) (bs2 m c) :=
  (W9_arr m ρ c 2).trans ((Cert.KernelIdeal.Rectify2.final (V8 m ρ) c).trans
    ((congrArg₂ Cert.KernelIdeal.Rectify2.rectified (at8_spread m ρ c) (at8_bias m ρ c)).trans (Cert.GCN.Bridge.rectified2_eq _ _ _)))

end Stages

end Cert.KernelIdeal.Whole

end
-- ==== Proof.RefRun.lean ====
/-
  The reference program's run, read back as one function of its arguments.

  The reference is a straight line of whole-array operations: the entry function's statements in order, with each
  call of an outlined function replaced by that function's body over the buffers the call names.  Written as a list,
  the line's run is a fold: every operation rewrites the buffer it defines and leaves the others.  Read at the result
  buffer, the fold is the two-layer graph-convolution network of the six arguments; read at an argument, it is what
  was there.
-/
import proofs.«154644_j76510547411355_1_alg».proof.Proof.Spec
import proofs.«154644_j76510547411355_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first sixty statements as operations, in order: the edge list's two rows with the self loops appended, the
    degrees and their inverse square roots (the outlined selection's three operations over its own buffers), the
    entries' weights, the first layer's product, message passing and bias, and the outlined rectifier's seven
    operations (its own selection last). -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S50000 ![] bcast_S_S50000),
    TRef.ternary (.of main_v12 : TRef sig ⟨S50000, .i1⟩) (.of main_v13 : TRef sig ⟨S50000, .f32⟩) main_call0.v1 main_call0.v2 select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    binary main_arg0 main_arg2 main_v30 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v5 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x3C23D70A#32),
    TRef.nullary main_call1.cst (constant S_ .f32 0x00000000#32),
    TRef.unary main_call1.cst main_call1.v0 (broadcastInDim S50000x128 ![] bcast_S_S50000x128),
    TRef.binary (.of main_v46 : TRef sig ⟨S50000x128, .f32⟩) main_call1.v0 main_call1.v1 (cmpf .oge),
    TRef.unary (.of main_cst_9 : TRef sig ⟨S_, .f32⟩) main_call1.v2 id,
    TRef.unary main_call1.v2 main_call1.v3 (broadcastInDim S50000x128 ![] bcast_S_S50000x128),
    TRef.binary main_call1.v3 (.of main_v46 : TRef sig ⟨S50000x128, .f32⟩) main_call1.v4 mulf,
    TRef.ternary main_call1.v1 (.of main_v46 : TRef sig ⟨S50000x128, .f32⟩) main_call1.v4 main_call1.call0.v0 select ]

/-- The remaining statements as operations, in order: the index lists and weights computed again, the second
    layer's product, message passing and bias, and the outlined rectifier's seven operations. -/
abbrev ops1 : List (HloOp τ sig (Elt F)) :=
  [ nullary main_v48 (iotaInDim S50000 32 0),
    binary main_v1 main_v48 main_v49 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v48 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_10 (constant S_ .f32 0x3F800000#32),
    unary main_cst_10 main_v51 (broadcastInDim S850000 ![] bcast_S_S850000 : (⟨S_, .f32⟩ : BufTy).Contents (Elt F) → (⟨S850000, .f32⟩ : BufTy).Contents (Elt F)),
    nullary main_cst_11 (constant S_ .f32 0x00000000#32),
    unary main_cst_11 main_v52 (broadcastInDim S50000 ![] bcast_S_S50000 : (⟨S_, .f32⟩ : BufTy).Contents (Elt F) → (⟨S50000, .f32⟩ : BufTy).Contents (Elt F)),
    unary main_v50 main_v53 (broadcastInDim S850000x1 ![0] bcast_S850000_S850000x1_0 : (⟨S850000, .i32⟩ : BufTy).Contents (Elt F) → (⟨S850000x1, .i32⟩ : BufTy).Contents (Elt F)),
    ternary main_v52 main_v53 main_v51 main_v54 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v55 (broadcastInDim S50000 ![] bcast_S_S50000 : (⟨S_, .f32⟩ : BufTy).Contents (Elt F) → (⟨S50000, .f32⟩ : BufTy).Contents (Elt F)),
    binary main_v54 main_v55 main_v56 (cmpf .ogt : (⟨S50000, .f32⟩ : BufTy).Contents (Elt F) → (⟨S50000, .f32⟩ : BufTy).Contents (Elt F) → (⟨S50000, .i1⟩ : BufTy).Contents (Elt F)),
    unary main_v54 main_v57 (Host.rsqrt : (⟨S50000, .f32⟩ : BufTy).Contents (Elt F) → (⟨S50000, .f32⟩ : BufTy).Contents (Elt F)),
    nullary main_cst_13 (constant S_ .f32 0x00000000#32),
    TRef.unary (.of main_cst_13 : TRef sig ⟨S_, .f32⟩) main_call2.v0 id,
    TRef.unary main_call2.v0 main_call2.v1 (broadcastInDim S50000 ![] bcast_S_S50000),
    TRef.ternary (.of main_v56 : TRef sig ⟨S50000, .i1⟩) (.of main_v57 : TRef sig ⟨S50000, .f32⟩) main_call2.v1 main_call2.v2 select,
    nullary main_c_14 (constantI S_ 32 0#32),
    unary main_c_14 main_v59 (broadcastInDim S850000 ![] bcast_S_S850000 : (⟨S_, .i32⟩ : BufTy).Contents (Elt F) → (⟨S850000, .i32⟩ : BufTy).Contents (Elt F)),
    binary main_v49 main_v59 main_v60 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v61 (broadcastInDim S850000 ![] bcast_S_S850000 : (⟨S_, .i32⟩ : BufTy).Contents (Elt F) → (⟨S850000, .i32⟩ : BufTy).Contents (Elt F)),
    binary main_v49 main_v61 main_v62 (addi : (⟨S850000, .i32⟩ : BufTy).Contents (Elt F) → (⟨S850000, .i32⟩ : BufTy).Contents (Elt F) → (⟨S850000, .i32⟩ : BufTy).Contents (Elt F)),
    ternary main_v60 main_v62 main_v49 main_v63 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v63 main_v64 (broadcastInDim S850000x1 ![0] bcast_S850000_S850000x1_0 : (⟨S850000, .i32⟩ : BufTy).Contents (Elt F) → (⟨S850000x1, .i32⟩ : BufTy).Contents (Elt F)),
    binary main_v58 main_v64 main_v65 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_16 (constantI S_ 32 0#32),
    unary main_c_16 main_v66 (broadcastInDim S850000 ![] bcast_S_S850000 : (⟨S_, .i32⟩ : BufTy).Contents (Elt F) → (⟨S850000, .i32⟩ : BufTy).Contents (Elt F)),
    binary main_v50 main_v66 main_v67 (cmpi .slt : (⟨S850000, .i32⟩ : BufTy).Contents (Elt F) → (⟨S850000, .i32⟩ : BufTy).Contents (Elt F) → (⟨S850000, .i1⟩ : BufTy).Contents (Elt F)),
    nullary main_c_17 (constantI S_ 32 50000#32),
    unary main_c_17 main_v68 (broadcastInDim S850000 ![] bcast_S_S850000 : (⟨S_, .i32⟩ : BufTy).Contents (Elt F) → (⟨S850000, .i32⟩ : BufTy).Contents (Elt F)),
    binary main_v50 main_v68 main_v69 (addi : (⟨S850000, .i32⟩ : BufTy).Contents (Elt F) → (⟨S850000, .i32⟩ : BufTy).Contents (Elt F) → (⟨S850000, .i32⟩ : BufTy).Contents (Elt F)),
    ternary main_v67 main_v69 main_v50 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v70 main_v71 (broadcastInDim S850000x1 ![0] bcast_S850000_S850000x1_0 : (⟨S850000, .i32⟩ : BufTy).Contents (Elt F) → (⟨S850000x1, .i32⟩ : BufTy).Contents (Elt F)),
    binary main_v58 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v65 main_v72 main_v73 (mulf : (⟨S850000, .f32⟩ : BufTy).Contents (Elt F) → (⟨S850000, .f32⟩ : BufTy).Contents (Elt F) → (⟨S850000, .f32⟩ : BufTy).Contents (Elt F)),
    binary main_v47 main_arg4 main_v74 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_18 (constantI S_ 32 0#32),
    unary main_c_18 main_v75 (broadcastInDim S850000 ![] bcast_S_S850000 : (⟨S_, .i32⟩ : BufTy).Contents (Elt F) → (⟨S850000, .i32⟩ : BufTy).Contents (Elt F)),
    binary main_v49 main_v75 main_v76 (cmpi .slt : (⟨S850000, .i32⟩ : BufTy).Contents (Elt F) → (⟨S850000, .i32⟩ : BufTy).Contents (Elt F) → (⟨S850000, .i1⟩ : BufTy).Contents (Elt F)),
    nullary main_c_19 (constantI S_ 32 50000#32),
    unary main_c_19 main_v77 (broadcastInDim S850000 ![] bcast_S_S850000 : (⟨S_, .i32⟩ : BufTy).Contents (Elt F) → (⟨S850000, .i32⟩ : BufTy).Contents (Elt F)),
    binary main_v49 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v49 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v74 main_v80 main_v81 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v73 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x64 ![0, 1] bcast_S850000x1_S850000x64_0_1 : (⟨S850000x1, .f32⟩ : BufTy).Contents (Elt F) → (⟨S850000x64, .f32⟩ : BufTy).Contents (Elt F)),
    binary main_v81 main_v83 main_v84 (mulf : (⟨S850000x64, .f32⟩ : BufTy).Contents (Elt F) → (⟨S850000x64, .f32⟩ : BufTy).Contents (Elt F) → (⟨S850000x64, .f32⟩ : BufTy).Contents (Elt F)),
    nullary main_cst_20 (constant S_ .f32 0x00000000#32),
    unary main_cst_20 main_v85 (broadcastInDim S50000x64 ![] bcast_S_S50000x64 : (⟨S_, .f32⟩ : BufTy).Contents (Elt F) → (⟨S50000x64, .f32⟩ : BufTy).Contents (Elt F)),
    unary main_v50 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)),
    nullary main_cst_21 (constant S_ .f32 0x3C23D70A#32),
    TRef.nullary main_call3.cst (constant S_ .f32 0x00000000#32),
    TRef.unary main_call3.cst main_call3.v0 (broadcastInDim S50000x64 ![] bcast_S_S50000x64),
    TRef.binary (.of main_v90 : TRef sig ⟨S50000x64, .f32⟩) main_call3.v0 main_call3.v1 (cmpf .oge),
    TRef.unary (.of main_cst_21 : TRef sig ⟨S_, .f32⟩) main_call3.v2 id,
    TRef.unary main_call3.v2 main_call3.v3 (broadcastInDim S50000x64 ![] bcast_S_S50000x64),
    TRef.binary main_call3.v3 (.of main_v90 : TRef sig ⟨S50000x64, .f32⟩) main_call3.v4 mulf,
    TRef.ternary main_call3.v1 (.of main_v90 : TRef sig ⟨S50000x64, .f32⟩) main_call3.v4 main_call3.call0.v0 select ]

set_option maxRecDepth 8192 in
set_option maxHeartbeats 4000000 in
/-- The first sixty statements are the first list's straight line: the outlined functions unfolded at their calls,
    sequencing reassociated. -/
theorem part0_eq (c : Dev nD) : main_part0 (F := F) c = seq ops0 := by
  simp only [main_part0, fn_where.body, fn_leaky_relu.body, fn_where_0.body, seq, bind_assoc, pure_bind]

set_option maxRecDepth 8192 in
set_option maxHeartbeats 4000000 in
/-- The remaining statements are the second list's straight line. -/
theorem part1_eq (c : Dev nD) : main_part1 (F := F) c = seq ops1 := by
  simp only [main_part1, fn_where.body, fn_leaky_relu_1.body, fn_where_2.body, seq, bind_assoc, pure_bind]

/-- The entry function runs the two windows one after the other: the concatenated list's straight line. -/
theorem main_eq (c : Dev nD) : main (F := F) c = seq (ops0 ++ ops1) := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., binary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub ..⟩

theorem ops1_sub : (ops1 : List (HloOp τ sig (Elt F))).Forall fun op => op.bufs ⊆ tcRefs τ sig :=
  ⟨nullary_bufs_sub .., binary_bufs_sub .., binary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩

theorem ops_sub : (ops0 ++ ops1 : List (HloOp τ sig (Elt F))).Forall fun op => op.bufs ⊆ tcRefs τ sig :=
  List.forall_iff_forall_mem.2 fun op h => (List.mem_append.1 h).elim
    (List.forall_iff_forall_mem.1 ops0_sub op) (List.forall_iff_forall_mem.1 ops1_sub op)

/-- Every operation determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem ops_fresh : ∀ op ∈ (ops0 ++ ops1 : List (HloOp τ sig (Elt F))), op.fresh = ∅ :=
  fun op h => (List.mem_append.1 h).elim
    (List.forall_iff_forall_mem.1 ops0_fresh op) (List.forall_iff_forall_mem.1 ops1_fresh op)

/-- From any memory with zero counters, every weakly fair execution of the entry function on the TensorCores
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops0 ++ ops1) (launchContents m c) (b : DevRef τ sig) :=
  run_seq scopedRefs_eq scopedSems_eq defs main (fun _ => ops0 ++ ops1) main_eq (fun _ => ops_sub) m ρ (fun _ => ops_fresh)

/-- The fold over a concatenation is the second list's fold over the first's. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- A vector of 800000 entries followed by one of 50000: the concatenation the program uses, its two operands as
    plain arguments. -/
def joined {α : Type} (a : S800000.Idx → α) (b : S50000.Idx → α) : S850000.Idx → α :=
  concatenate S850000 0 [⟨S800000, a⟩, ⟨S50000, b⟩] concatenates_S800000_S50000_S850000_d0

theorem concatenate_eq_joined {α : Type} (a : S800000.Idx → α) (b : S50000.Idx → α)
    (h : Shape.Concatenates [S800000, S50000] S850000 0) :
    concatenate S850000 0 [⟨S800000, a⟩, ⟨S50000, b⟩] h = joined a b := rfl

/-- Reads a fold at one buffer: the fold unrolled, each operation's result at its own buffer replaced by its function's
    value at the operands' contents and at any other buffer by what was there, in one pass; a concatenation's operands
    are brought out of its list so that the pass reaches them. -/
macro "read_fold" : tactic =>
  `(tactic| (simp (disch := decide) only [after_cons, after_nil, concatenate_eq_joined,
      nullary_result', unary_result', binary_result', ternary_result', reshape_result',
      nullary_result_ne', unary_result_ne', binary_result_ne', ternary_result_ne', reshape_result_ne']))

attribute [local irreducible] Host.scatterAdd Host.gather Host.rsqrt concatenate in
set_option maxRecDepth 8192 in
/-- After the first list, row 0 of the edge list as a vector. -/
theorem v1_0 (V : Valuation τ sig (Elt F)) : after ops0 V (main_v1 : DevRef τ sig)
    = shapeCast S800000 (extractStridedSlice S1x800000 ![0, 0] (V (main_arg1 : DevRef τ sig)) slices_S2x800000_S1x800000_0_0) shapeCasts_S1x800000_S800000 := by
  read_fold
  rfl

attribute [local irreducible] Host.scatterAdd Host.gather Host.rsqrt concatenate in
set_option maxRecDepth 8192 in
/-- After the first list, row 1 of the edge list as a vector. -/
theorem v3_0 (V : Valuation τ sig (Elt F)) : after ops0 V (main_v3 : DevRef τ sig)
    = shapeCast S800000 (extractStridedSlice S1x800000 ![1, 0] (V (main_arg1 : DevRef τ sig)) slices_S2x800000_S1x800000_1_0) shapeCasts_S1x800000_S800000 := by
  read_fold
  rfl

attribute [local irreducible] Host.scatterAdd Host.gather Host.rsqrt concatenate in
set_option maxRecDepth 8192 in
set_option maxHeartbeats 4000000 in
/-- After the first list, the first layer's output. -/
theorem v47_0 (V : Valuation τ sig (Elt F)) : after ops0 V (main_v47 : DevRef τ sig)
    = Cert.GCN.layer1 (V (main_arg0 : DevRef τ sig)) (Cert.GCN.sources (V (main_arg1 : DevRef τ sig))) (Cert.GCN.targets (V (main_arg1 : DevRef τ sig))) (Cert.GCN.weights (V (main_arg1 : DevRef τ sig))) (V (main_arg2 : DevRef τ sig)) (V (main_arg3 : DevRef τ sig)) := by
  read_fold

  rfl

attribute [local irreducible] Host.scatterAdd Host.gather Host.rsqrt concatenate in
set_option maxRecDepth 8192 in
set_option maxHeartbeats 4000000 in
/-- The second list from any contents: the second layer over the first layer's output, the index lists rebuilt from
    the edge list's two rows and the weights recomputed from them. -/
theorem v91_1 (W : Valuation τ sig (Elt F)) : after ops1 W (main_v91 : DevRef τ sig)
    = Cert.GCN.layer2 (W (main_v47 : DevRef τ sig))
        (joined (α := BitVec 32) (W (main_v1 : DevRef τ sig)) (iotaInDim S50000 32 0))
        (joined (α := BitVec 32) (W (main_v3 : DevRef τ sig)) (iotaInDim S50000 32 0))
        (mulf
          (Cert.GCN.atNodes (Cert.GCN.invSqrt (Cert.GCN.degree (joined (α := BitVec 32) (W (main_v3 : DevRef τ sig)) (iotaInDim S50000 32 0))))
            (joined (α := BitVec 32) (W (main_v1 : DevRef τ sig)) (iotaInDim S50000 32 0)))
          (Cert.GCN.atNodes (Cert.GCN.invSqrt (Cert.GCN.degree (joined (α := BitVec 32) (W (main_v3 : DevRef τ sig)) (iotaInDim S50000 32 0))))
            (joined (α := BitVec 32) (W (main_v3 : DevRef τ sig)) (iotaInDim S50000 32 0))))
        (W (main_arg4 : DevRef τ sig)) (W (main_arg5 : DevRef τ sig)) := by
  read_fold
  rfl

/-- The first list leaves the second layer's parameters as they were. -/
theorem arg4_0 (V : Valuation τ sig (Elt F)) : after ops0 V (main_arg4 : DevRef τ sig) = V (main_arg4 : DevRef τ sig) := by
  read_fold

theorem arg5_0 (V : Valuation τ sig (Elt F)) : after ops0 V (main_arg5 : DevRef τ sig) = V (main_arg5 : DevRef τ sig) := by
  read_fold

attribute [local irreducible] Host.scatterAdd Host.gather Host.rsqrt concatenate in
set_option maxRecDepth 8192 in
set_option maxHeartbeats 4000000 in
/-- The fold at the result buffer is the network of the six arguments: the second list's reading at the first list's
    results, which are the first layer's output and the edge list's two rows. -/
theorem out_eq (V : Valuation τ sig (Elt F)) : after (ops0 ++ ops1) V (main_v91 : DevRef τ sig)
      = Cert.GCN.network (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_concat, v91_1, v47_0, v1_0, v3_0, arg4_0, arg5_0]
  rfl

/-- No operation writes an argument's buffer. -/
theorem arg0_eq (V : Valuation τ sig (Elt F)) : after (ops0 ++ ops1) V (main_arg0 : DevRef τ sig) = V (main_arg0 : DevRef τ sig) := by
  rw [after_concat]
  read_fold

theorem arg1_eq (V : Valuation τ sig (Elt F)) : after (ops0 ++ ops1) V (main_arg1 : DevRef τ sig) = V (main_arg1 : DevRef τ sig) := by
  rw [after_concat]
  read_fold

theorem arg2_eq (V : Valuation τ sig (Elt F)) : after (ops0 ++ ops1) V (main_arg2 : DevRef τ sig) = V (main_arg2 : DevRef τ sig) := by
  rw [after_concat]
  read_fold

theorem arg3_eq (V : Valuation τ sig (Elt F)) : after (ops0 ++ ops1) V (main_arg3 : DevRef τ sig) = V (main_arg3 : DevRef τ sig) := by
  rw [after_concat]
  read_fold

theorem arg4_eq (V : Valuation τ sig (Elt F)) : after (ops0 ++ ops1) V (main_arg4 : DevRef τ sig) = V (main_arg4 : DevRef τ sig) := by
  rw [after_concat]
  read_fold

theorem arg5_eq (V : Valuation τ sig (Elt F)) : after (ops0 ++ ops1) V (main_arg5 : DevRef τ sig) = V (main_arg5 : DevRef τ sig) := by
  rw [after_concat]
  read_fold

/-- From any memory with zero counters, every weakly fair execution of the entry function terminates with the result
    buffer at the network of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = Cert.GCN.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_main m ρ)

end Cert.ReferenceIdeal.RefRun

end
-- ==== Proof.lean ====
/-
  A two-layer graph-convolution network computed by four tiled launches among host operations, against its plain
  reference, over the extended reals.

  Both programs build the same graph data on the host: every edge's source and destination with a self loop per node
  appended, each node's degree as a sum of ones, and each entry's weight as the product of the inverse square roots of
  its endpoints' degrees.  A layer multiplies the node features by a weight matrix, spreads the product's rows along the
  graph (a gather at the sources, a scaling by the weights, a sum at the destinations), adds a bias to every row and
  applies the leaky rectifier with slope `0.01`.  The reference does all of it on the host; the kernel program does
  the two matrix products and the two bias-and-rectifier steps in launches tiled over ten blocks of 5000 rows, and
  computes the graph data once where the reference computes it per layer.

  At the ideal values the two agree exactly.  A tiled product's entry is the same sum over the shared axis as the whole
  product's (the roundings on the way in are the identity, and the tiling cuts rows only, never the sum); a tiled
  bias-and-rectifier step is the whole one entry by entry, the bias row read at the entry's column, the launch's
  `v > 0` test and the reference's `v ≥ 0` test selecting the same value because `0.01 · 0 = 0`; and the graph data, the
  gathers and the scattered sums are the same operations of the same arrays in both programs.  No step needs the inputs
  to be finite: no law is used that fails at an infinity.

  The frames of the two kernel programs are the generated ones; the reference's frame is its run with the result
  dropped; the idealization rewrote nothing, so there is nothing to preserve.
-/
import proofs.«154644_j76510547411355_1_alg».proof.Defs
import proofs.«154644_j76510547411355_1_alg».proof.Proof.Gen.Kernel
import proofs.«154644_j76510547411355_1_alg».proof.Proof.Gen.Kernel.Frame
import proofs.«154644_j76510547411355_1_alg».proof.Proof.Gen.KernelIdeal
import proofs.«154644_j76510547411355_1_alg».proof.Proof.Gen.KernelIdeal.Frame
import proofs.«154644_j76510547411355_1_alg».proof.Proof.Gen.ReferenceIdeal
import proofs.«154644_j76510547411355_1_alg».proof.Proof.Gen.Pre_finite_inputs
import proofs.«154644_j76510547411355_1_alg».proof.Proof.KernelRun
import proofs.«154644_j76510547411355_1_alg».proof.Proof.KernelRead
import proofs.«154644_j76510547411355_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with the result at the network of the arguments and the arguments unchanged; the frame
    keeps the second half. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with the network of the argument arrays in their result buffers: the kernel program by reading
    its fold of host stretches and launches back to the arguments, the reference by reading its straight line. -/
theorem algebraic : Cert.algebraic_KernelIdeal_ReferenceIdeal := by
  intro m ρ m' ρ' _ hagree
  refine ⟨fun c => Cert.GCN.network (Cert.KernelIdeal.Whole.feat m c) (Cert.KernelIdeal.Whole.edges m c) (Cert.KernelIdeal.Whole.wt1 m c)
    (Cert.KernelIdeal.Whole.bs1 m c) (Cert.KernelIdeal.Whole.wt2 m c) (Cert.KernelIdeal.Whole.bs2 m c), ?_, ?_⟩
  · exact (θ_run Cert.KernelIdeal.defs _ _).mono
      (fun r h c => ⟨(h c).1.trans (Cert.KernelIdeal.Whole.result_eq m ρ c), (h c).2⟩) (Cert.KernelIdeal.Whole.run_result m ρ)
  · refine (θ_run Cert.ReferenceIdeal.defs _ _).mono (fun r h c => ⟨?_, (h c).2⟩)
      (Cert.ReferenceIdeal.RefRun.run (F := Ideal) m' ρ')
    rw [(h c).1, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
